-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : IVec S4096x4096 32) (main_arg2 : FVec F S4096x128 .f32) (main_arg3 : FVec F S4096x16 .f32) (main_arg4 : FVec F S16x4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x16 .f32 := Host.absf main_arg3
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg4
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg5 main_v13 main_v16
-- ==== Kernel.lean ====
abbrev S8192x4096 : Shape := ⟨2, ![8192, 4096]⟩
abbrev S4096x4096 : Shape := ⟨2, ![4096, 4096]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S256x4096 : Shape := ⟨2, ![256, 4096]⟩
abbrev S256x128 : Shape := ⟨2, ![256, 128]⟩
abbrev S256x16 : Shape := ⟨2, ![256, 16]⟩
abbrev S256x128x32 : Shape := ⟨3, ![256, 128, 32]⟩
abbrev S256x128x1 : Shape := ⟨3, ![256, 128, 1]⟩
abbrev S512x4096 : Shape := ⟨2, ![512, 4096]⟩
abbrev S512 : Shape := ⟨1, ![512]⟩
abbrev S512x512 : Shape := ⟨2, ![512, 512]⟩
abbrev S1x512 : Shape := ⟨2, ![1, 512]⟩

abbrev nBuf : Space → Nat
  | .hbm => 8
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x128, .f32⟩
  | .hbm, ⟨3, _⟩ => ⟨S4096x16, .f32⟩
  | .hbm, ⟨4, _⟩ => ⟨S16x4096, .f32⟩
  | .hbm, ⟨5, _⟩ => ⟨S4096, .f32⟩
  | .hbm, ⟨6, _⟩ => ⟨S4096x4096, .bf16⟩
  | .hbm, ⟨7, _⟩ => ⟨S8192x4096, .f32⟩
  | .local _ .vmem, ⟨0, _⟩ => ⟨S256x4096, .i32⟩
  | .local _ .vmem, ⟨1, _⟩ => ⟨S256x4096, .i32⟩
  | .local _ .vmem, ⟨2, _⟩ => ⟨S256x128, .f32⟩
  | .local _ .vmem, ⟨3, _⟩ => ⟨S256x128, .f32⟩
  | .local _ .vmem, ⟨4, _⟩ => ⟨S256x16, .f32⟩
  | .local _ .vmem, ⟨5, _⟩ => ⟨S256x16, .f32⟩
  | .local _ .vmem, ⟨6, _⟩ => ⟨S16x4096, .f32⟩
  | .local _ .vmem, ⟨7, _⟩ => ⟨S256x4096, .bf16⟩
  | .local _ .vmem, ⟨8, _⟩ => ⟨S256x4096, .bf16⟩
  | .local _ .vmem, ⟨9, _⟩ => ⟨S512x4096, .f32⟩
  | .local _ .vmem, ⟨10, _⟩ => ⟨S512x4096, .f32⟩
  | .local _ .vmem, ⟨11, _⟩ => ⟨S512x4096, .bf16⟩
  | .local _ .vmem, ⟨12, _⟩ => ⟨S512x4096, .bf16⟩
  | .local _ .vmem, ⟨13, _⟩ => ⟨S512, .f32⟩
  | .local _ .vmem, ⟨14, _⟩ => ⟨S512, .f32⟩
  | .local _ .vmem, ⟨15, _⟩ => ⟨S512x512, .f32⟩
  | .local _ .vmem, ⟨16, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  shapeCasts_S256x4096_S256x128x32 : S256x4096.ShapeCasts S256x128x32
  inb_S256x128_S256x128_0_0 : ∀ a, (![0, 0] : Fin 2 → Nat) a + S256x128.size a ≤ S256x128.size a
  h_S256x128 : 0 < S256x128.numel
  shapeCasts_S256x128_S256x128x1 : S256x128.ShapeCasts S256x128x1
  broadcasts_S256x128x1_S256x128x32 : S256x128x1.Broadcasts S256x128x32
  shapeCasts_S256x128x32_S256x4096 : S256x128x32.ShapeCasts S256x4096
  inb_S256x16_S256x16_0_0 : ∀ a, (![0, 0] : Fin 2 → Nat) a + S256x16.size a ≤ S256x16.size a
  h_S256x16 : 0 < S256x16.numel
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S256x16_S16x4096_S256x4096_1_0_0_1_n_n_wf : DotDims.WF S256x16 S16x4096 S256x4096 [1] [0] [0] [1] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .f32 = 32 ∨ (Rect.block (s := S4096x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S4096x16.size a
  hwx0_2 : ∀ i : grid0.Coords, EltTy.bits .f32 = 32 ∨ (Rect.block (s := S4096x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .f32 = 32 ∨ (Rect.block (s := S16x4096) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S4096.size a
  hwx1_2 : ∀ i : grid1.Coords, EltTy.bits .f32 = 32 ∨ (Rect.block (s := S4096) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x4096.size a
  hwx1_3 : ∀ i : grid1.Coords, EltTy.bits .f32 = 32 ∨ (Rect.block (s := S8192x4096) S512x512.size (cc1_transform_3 i) (hinb1_3 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S_ : Shape := ⟨0, ![]⟩
abbrev S4096x128x32 : Shape := ⟨3, ![4096, 128, 32]⟩
abbrev S4096x128x1 : Shape := ⟨3, ![4096, 128, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x128, .f32⟩
  | .hbm, ⟨3, _⟩ => ⟨S4096x16, .f32⟩
  | .hbm, ⟨4, _⟩ => ⟨S16x4096, .f32⟩
  | .hbm, ⟨5, _⟩ => ⟨S4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x128x32, .f32⟩
  | .hbm, ⟨11, _⟩ => ⟨S4096x128x1, .f32⟩
  | .hbm, ⟨12, _⟩ => ⟨S4096x128x32, .f32⟩
  | .hbm, ⟨13, _⟩ => ⟨S4096x128x32, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S4096x128x32 : S4096x4096.ShapeCasts S4096x128x32
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x16_S16x4096_S4096x4096_1_0_0_1_n_n_wf : DotDims.WF S4096x16 S16x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  What both programs compute, as two functions of the argument arrays, index by index, on the extended reals.

  A weight matrix is stored as 4-bit codes `q[o, i]` (kept in 32-bit words) with one scale per group of 32 consecutive
  columns, `s[o, i / 32]`, and is patched by a rank-16 product:
      w[o, i] = (q[o, i] - 8) · s[o, i / 32] + Σ_r a[o, r] · b[r, i].
  The layer's output is the product of the input rows with the ROWS of that matrix, plus a bias per output column:
      y[t, o] = Σ_k x[t, k] · w[o, k] + bias[o].
  Sums are finite sums in the commutative monoid of the extended reals, so neither the order of the terms nor any
  tiling of the index ranges is visible in them.
-/
import Idealize.ShloMosaic.PureOps.Ideal
import Idealize.ShloMosaic.Lib.ValueIdx

noncomputable section

namespace Cert.Spec

open Idealize.ShloMosaic Idealize.ShloMosaic.ValueIdx

/-- The quantization group of column `i`: 32 consecutive columns share one scale. -/
abbrev grp (i : Fin 4096) : Fin 128 := ⟨i.val / 32, by have := i.isLt; omega⟩

/-- Entry (o, i) of the dequantized, patched weight matrix: the centred code times its group's scale, plus the
    rank-16 patch. -/
def weightAt (q : Vec Ideal ⟨2, ![4096, 4096]⟩ .i32) (s : FVec Ideal ⟨2, ![4096, 128]⟩ .f32)
    (a : FVec Ideal ⟨2, ![4096, 16]⟩ .f32) (b : FVec Ideal ⟨2, ![16, 4096]⟩ .f32) (o i : Fin 4096) : EReal :=
  (FloatOps.sitofp (F := Ideal) .f32 (q (ix2 o i)) - Ideal.ofBits .f32 0x41000000#32) * s (ix2 o (grp i))
    + ∑ r : Fin 16, a (ix2 o r) * b (ix2 r i)

/-- The dequantized, patched weight matrix. -/
def weight (q : Vec Ideal ⟨2, ![4096, 4096]⟩ .i32) (s : FVec Ideal ⟨2, ![4096, 128]⟩ .f32)
    (a : FVec Ideal ⟨2, ![4096, 16]⟩ .f32) (b : FVec Ideal ⟨2, ![16, 4096]⟩ .f32) : (⟨2, ![4096, 4096]⟩ : Shape).Idx → EReal :=
  fun j => weightAt q s a b (j 0) (j 1)

theorem weight_apply (q : Vec Ideal ⟨2, ![4096, 4096]⟩ .i32) (s : FVec Ideal ⟨2, ![4096, 128]⟩ .f32)
    (a : FVec Ideal ⟨2, ![4096, 16]⟩ .f32) (b : FVec Ideal ⟨2, ![16, 4096]⟩ .f32) (o i : Fin 4096) :
    weight q s a b (ix2 o i) = weightAt q s a b o i := rfl

/-- Entry (t, o) of the layer's output: input row `t` against ROW `o` of the weight matrix, plus column `o`'s bias. -/
def outputAt (x : (⟨2, ![8192, 4096]⟩ : Shape).Idx → EReal) (w : (⟨2, ![4096, 4096]⟩ : Shape).Idx → EReal)
    (bias : (⟨1, ![4096]⟩ : Shape).Idx → EReal) (t : Fin 8192) (o : Fin 4096) : EReal :=
  (∑ k : Fin 4096, x (ix2 t k) * w (ix2 o k)) + bias (ix1 o)

/-- The layer's output. -/
def output (x : (⟨2, ![8192, 4096]⟩ : Shape).Idx → EReal) (w : (⟨2, ![4096, 4096]⟩ : Shape).Idx → EReal)
    (bias : (⟨1, ![4096]⟩ : Shape).Idx → EReal) : (⟨2, ![8192, 4096]⟩ : Shape).Idx → EReal :=
  fun j => outputAt x w bias (j 0) (j 1)

theorem output_apply (x : (⟨2, ![8192, 4096]⟩ : Shape).Idx → EReal) (w : (⟨2, ![4096, 4096]⟩ : Shape).Idx → EReal)
    (bias : (⟨1, ![4096]⟩ : Shape).Idx → EReal) (t : Fin 8192) (o : Fin 4096) :
    output x w bias (ix2 t o) = outputAt x w bias t o := rfl

end Cert.Spec

end
-- ==== Proof.RefValue.lean ====
/-
  The reference, read index by index: its result is `Spec.output x (Spec.weight q s a b) bias`.

  The reference reshapes the centred codes to [row, group, lane], multiplies by the scales broadcast along the lane
  axis and reshapes back: at column `i` that is group `i / 32`, lane `i % 32`, so the entry is the centred code
  times `s[o, i / 32]`. It then transposes the patched matrix and contracts the input's columns with the transposed
  matrix's rows: entry (t, o) sums `x[t, k] · w[o, k]` over `k`.
-/
import proofs.«120915_j15745350107702_1_alg».proof.Proof.Gen.ReferenceIdeal.Read
import proofs.«120915_j15745350107702_1_alg».proof.Proof.Spec

noncomputable section

namespace Cert.ReferenceIdeal.RefValue

open Cert.ReferenceIdeal Cert.ReferenceIdeal.Read Idealize.ShloMosaic Idealize.ShloMosaic.ValueIdx

/-- Reshaping [4096, 4096] to [4096, 128, 32] and back reads the same entry. -/
theorem idx_there_back (o i : Fin 4096) : idx_main_v3 (idx_main_v7 (ix2 o i)) = ix2 o i := by
  have h0 : o.val < 4096 := o.isLt
  have h1 : i.val < 4096 := i.isLt
  funext a; apply Fin.ext
  match a with
  | ⟨0, _⟩ =>
    show (((o.val * 4096 + i.val) / 4096 * 128 + (o.val * 4096 + i.val) / 32 % 128) * 32 + (o.val * 4096 + i.val) % 32) / 4096 = o.val
    omega
  | ⟨1, _⟩ =>
    show (((o.val * 4096 + i.val) / 4096 * 128 + (o.val * 4096 + i.val) / 32 % 128) * 32 + (o.val * 4096 + i.val) % 32) % 4096 = i.val
    omega

/-- The scale an entry meets: its row's, at its column's group. -/
theorem idx_scale (o i : Fin 4096) : idx_main_v4 (idx_main_v5 (idx_main_v7 (ix2 o i))) = ix2 o (Cert.Spec.grp i) := by
  have h0 : o.val < 4096 := o.isLt
  have h1 : i.val < 4096 := i.isLt
  funext a; apply Fin.ext
  match a with
  | ⟨0, _⟩ => show (o.val * 4096 + i.val) / 4096 = o.val; omega
  | ⟨1, _⟩ => show (o.val * 4096 + i.val) / 32 % 128 = i.val / 32; omega

theorem idx_patch_l (o i : Fin 4096) (r : Fin 16) : lidx_main_v8 (ix2 o i) r = ix2 o r :=
  funext fun a => Fin.ext (by match a with | ⟨0, _⟩ => rfl | ⟨1, _⟩ => rfl)
theorem idx_patch_r (o i : Fin 4096) (r : Fin 16) : ridx_main_v8 (ix2 o i) r = ix2 r i :=
  funext fun a => Fin.ext (by match a with | ⟨0, _⟩ => rfl | ⟨1, _⟩ => rfl)

/-- The patched matrix the reference builds (before it transposes it) is `Spec.weight`, entry by entry. -/
theorem weight_eq (q : (⟨S4096x4096, .i32⟩ : BufTy).Contents (Elt Ideal)) (s : (⟨S4096x128, .f32⟩ : BufTy).Contents (Elt Ideal))
    (a : (⟨S4096x16, .f32⟩ : BufTy).Contents (Elt Ideal)) (b : (⟨S16x4096, .f32⟩ : BufTy).Contents (Elt Ideal)) (o i : Fin 4096) :
    val_main_v9 (F := Ideal) q s a b (ix2 o i) = Cert.Spec.weightAt q s a b o i := by
  rw [val_main_v9_apply, val_main_v7_apply, val_main_v6_apply, val_main_v3_apply, val_main_v2_apply, val_main_v0_apply,
    val_main_v1_apply, val_main_cst_apply, val_main_v5_apply, val_main_v4_apply, val_main_v8_apply, idx_there_back, idx_scale]
  simp only [idx_patch_l, idx_patch_r]
  rfl

theorem idx_in_l (t : Fin 8192) (o : Fin 4096) (k : Fin 4096) : lidx_main_v11 (ix2 t o) k = ix2 t k :=
  funext fun a => Fin.ext (by match a with | ⟨0, _⟩ => rfl | ⟨1, _⟩ => rfl)
/-- The transposed matrix at (k, o) is the matrix at (o, k). -/
theorem idx_in_r (t : Fin 8192) (o : Fin 4096) (k : Fin 4096) : idx_main_v10 (ridx_main_v11 (ix2 t o) k) = ix2 o k :=
  funext fun a => Fin.ext (by match a with | ⟨0, _⟩ => rfl | ⟨1, _⟩ => rfl)
theorem idx_bias (t : Fin 8192) (o : Fin 4096) : idx_main_v12 (idx_main_v13 (ix2 t o)) = ix1 o :=
  funext fun a => Fin.ext (by match a with | ⟨0, _⟩ => rfl)

/-- The reference's result is the layer's output on the dequantized, patched weight matrix. -/
theorem result_eq (x : (⟨S8192x4096, .f32⟩ : BufTy).Contents (Elt Ideal)) (q : (⟨S4096x4096, .i32⟩ : BufTy).Contents (Elt Ideal))
    (s : (⟨S4096x128, .f32⟩ : BufTy).Contents (Elt Ideal)) (a : (⟨S4096x16, .f32⟩ : BufTy).Contents (Elt Ideal))
    (b : (⟨S16x4096, .f32⟩ : BufTy).Contents (Elt Ideal)) (bias : (⟨S4096, .f32⟩ : BufTy).Contents (Elt Ideal)) :
    val_main_v14 (F := Ideal) x q s a b bias = Cert.Spec.output x (Cert.Spec.weight q s a b) bias := by
  funext j
  obtain ⟨t, o, rfl⟩ : ∃ (t : Fin 8192) (o : Fin 4096), j = ix2 t o := ⟨j 0, j 1, eq_ix2 j⟩
  rw [val_main_v14_apply, val_main_v11_apply, val_main_v13_apply, val_main_v12_apply, idx_bias, Cert.Spec.output_apply]
  unfold Cert.Spec.outputAt
  refine congrArg (· + bias (ix1 o)) (Finset.sum_congr rfl fun k _ => ?_)
  rw [val_main_v10_apply, idx_in_l, idx_in_r, weight_eq, Cert.Spec.weight_apply]

end Cert.ReferenceIdeal.RefValue

end
-- ==== Proof.KernelRun.lean ====
/-
  The kernel's run with its result array named.

  The program is two launches in a row: the first writes the dequantized, patched weight matrix into an intermediate
  array, the second reads that array and writes the result. Every weakly fair execution ends with each unscoped buffer at
  the contents the second launch leaves (the boundary contents after the last segment); so any property of those
  contents holds of the final memory (`run_boundary`). Read at the result's buffer, they are the array the second
  launch's write-backs build from the contents the first launch left (`run_named`).
-/
import proofs.«120915_j15745350107702_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, in a memory whose unscoped buffers hold the contents after
    the last segment; whatever follows from that holds at the end. -/
theorem run_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W2 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := hQ)

/-- The run, read at the result's buffer and at the arguments: the result array is what the second launch's write-backs
    build, and no argument array changes. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_boundary m ρ fun s h c =>
    ⟨(h c _ (mem_uc main_v1 (by decide))).trans (W2_arr m ρ c 3),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c)⟩

end Cert.KernelIdeal.Hand

end
-- ==== Proof.DequantBody.lean ====
/-
  The first kernel's body at one entry of its block.

  On a block of 256 rows the body centres the codes, views the [256, 4096] block as [256, 128, 32] (column `i` is lane
  `i % 32` of group `i / 32`), multiplies by the scales broadcast along the lanes, views the product [256, 4096] again and
  adds the patch, a [256, 16] × [16, 4096] matrix product into a zero accumulator. At entry (p, i) that is
      (q[p, i] - 8) · s[p, i / 32] + Σ_r a[p, r] · b[r, i]
  of the loaded blocks: the two views cancel (32 · (i / 32) + i % 32 = i), the matrix product is a plain sum over its
  one contracted axis, and the narrowing of float formats is the identity on extended reals.
-/
import proofs.«120915_j15745350107702_1_alg».proof.Proof.Gen.KernelIdeal.Skeleton
import proofs.«120915_j15745350107702_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The lane of column `i` inside its group of 32. -/
abbrev lane (i : Fin 4096) : Fin 32 := ⟨i.val % 32, Nat.mod_lt _ (by decide)⟩

/-- Group `g`, lane `l` is column `32 g + l`. -/
abbrev col (g : Fin 128) (l : Fin 32) : Fin 4096 := ⟨g.val * 32 + l.val, by have := g.isLt; have := l.isLt; omega⟩

theorem col_grp_lane (i : Fin 4096) : col (Cert.Spec.grp i) (lane i) = i :=
  Fin.ext (by show i.val / 32 * 32 + i.val % 32 = i.val; omega)

/-- [256, 128, 32] viewed [256, 4096]: column `i` is lane `i % 32` of group `i / 32`. -/
theorem merge_cols {α : Type} (v : S256x128x32.Idx → α) (h : S256x128x32.ShapeCasts S256x4096) (p : Fin 256) (i : Fin 4096) :
    shapeCast S256x4096 v h (ix2 p i) = v (ix3 p (Cert.Spec.grp i) (lane i)) :=
  shapeCast_apply v h _ _ (by
    rw [Shape.rowMajor_val_three, Shape.rowMajor_val_two]
    show (p.val * 128 + i.val / 32) * 32 + i.val % 32 = p.val * 4096 + i.val
    omega)

/-- [256, 4096] viewed [256, 128, 32]: (group `g`, lane `l`) is column `32 g + l`. -/
theorem split_cols {α : Type} (v : S256x4096.Idx → α) (h : S256x4096.ShapeCasts S256x128x32) (p : Fin 256) (g : Fin 128) (l : Fin 32) :
    shapeCast S256x128x32 v h (ix3 p g l) = v (ix2 p (col g l)) :=
  shapeCast_apply v h _ _ (by
    rw [Shape.rowMajor_val_two, Shape.rowMajor_val_three]
    show p.val * 4096 + (g.val * 32 + l.val) = (p.val * 128 + g.val) * 32 + l.val
    omega)

/-- The scales given a trailing unit axis and broadcast along the lanes: every lane of group `g` reads `s[p, g]`. -/
theorem scale_lanes {α : Type} (x : S256x128.Idx → α) (h1 : S256x128.ShapeCasts S256x128x1) (h2 : S256x128x1.Broadcasts S256x128x32)
    (p : Fin 256) (g : Fin 128) (l : Fin 32) :
    broadcastTo S256x128x32 (shapeCast S256x128x1 x h1) h2 (ix3 p g l) = x (ix2 p g) :=
  (broadcastTo_apply (shapeCast S256x128x1 x h1) h2 (ix3 p g l) (ix3 p g (0 : Fin 1)) (fun a => by
    match a with
    | ⟨0, _⟩ => show p.val = if (256 : Nat) = 1 then 0 else p.val; rw [if_neg (by decide)]
    | ⟨1, _⟩ => show g.val = if (128 : Nat) = 1 then 0 else g.val; rw [if_neg (by decide)]
    | ⟨2, _⟩ => show 0 = if (1 : Nat) = 1 then 0 else l.val; rw [if_pos rfl])).trans
  (shapeCast_apply x h1 _ _ (by
    rw [Shape.rowMajor_val_two, Shape.rowMajor_val_three]
    show p.val * 128 + g.val = (p.val * 128 + g.val) * 1 + 0
    omega))

/-! ### The patch: a [256, 16] × [16, 4096] product into a zero accumulator is the sum over the rank axis -/

theorem patch_l0 (j : S256x4096.Idx) (q : dot_S256x16_S16x4096_S256x4096_1_0_0_1_n_n.contr.Idx) : (dot_S256x16_S16x4096_S256x4096_1_0_0_1_n_n.lhsIdx j q 0).val = (j 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
theorem patch_l1 (j : S256x4096.Idx) (q : dot_S256x16_S16x4096_S256x4096_1_0_0_1_n_n.contr.Idx) : (dot_S256x16_S16x4096_S256x4096_1_0_0_1_n_n.lhsIdx j q 1).val = (q ⟨0, by decide⟩).val :=
  dot_S256x16_S16x4096_S256x4096_1_0_0_1_n_n.lhsIdx_val_of_single rfl j q
theorem patch_r0 (j : S256x4096.Idx) (q : dot_S256x16_S16x4096_S256x4096_1_0_0_1_n_n.contr.Idx) : (dot_S256x16_S16x4096_S256x4096_1_0_0_1_n_n.rhsIdx j q 0).val = (q ⟨0, by decide⟩).val :=
  dot_S256x16_S16x4096_S256x4096_1_0_0_1_n_n.rhsIdx_val_of_single rfl j q
theorem patch_r1 (j : S256x4096.Idx) (q : dot_S256x16_S16x4096_S256x4096_1_0_0_1_n_n.contr.Idx) : (dot_S256x16_S16x4096_S256x4096_1_0_0_1_n_n.rhsIdx j q 1).val = (j 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

theorem patch_apply (l : FVec Ideal S256x16 .bf16) (r : FVec Ideal S16x4096 .bf16) (p : Fin 256) (i : Fin 4096) :
    matmul dot_S256x16_S16x4096_S256x4096_1_0_0_1_n_n none l r (constant (F := Ideal) S256x4096 .f32 0x00000000#32) (ix2 p i)
      = ∑ k : Fin 16, l (ix2 p k) * r (ix2 k i) := by
  simp only [matmul]
  rw [Ideal.matmul_constant_zero_apply, ← Equiv.sum_comp (contrEquiv1 dot_S256x16_S16x4096_S256x4096_1_0_0_1_n_n 16 rfl rfl).symm]
  refine Finset.sum_congr rfl fun k _ => ?_
  have hk := contrEquiv1_symm_val dot_S256x16_S16x4096_S256x4096_1_0_0_1_n_n 16 rfl rfl k
  have el : dot_S256x16_S16x4096_S256x4096_1_0_0_1_n_n.lhsIdx (ix2 p i) ((contrEquiv1 dot_S256x16_S16x4096_S256x4096_1_0_0_1_n_n 16 rfl rfl).symm k) = ix2 p k := funext fun a => Fin.ext (by
    match a with
    | ⟨0, _⟩ => exact patch_l0 _ _
    | ⟨1, _⟩ => exact (patch_l1 _ _).trans hk)
  have er : dot_S256x16_S16x4096_S256x4096_1_0_0_1_n_n.rhsIdx (ix2 p i) ((contrEquiv1 dot_S256x16_S16x4096_S256x4096_1_0_0_1_n_n 16 rfl rfl).symm k) = ix2 k i := funext fun a => Fin.ext (by
    match a with
    | ⟨0, _⟩ => exact (patch_r0 _ _).trans hk
    | ⟨1, _⟩ => exact patch_r1 _ _)
  rw [el, er]

/-- The body's stored value at entry (p, i) of the block, from the loaded blocks. -/
theorem dequant_apply (x0 : Vec Ideal S256x4096 .i32) (x1 : Vec Ideal S256x128 .f32) (x2 : Vec Ideal S256x16 .f32)
    (x3 : Vec Ideal S16x4096 .f32) (p : Fin 256) (i : Fin 4096) :
    k0_pay1 (F := Ideal) x0 x1 x2 x3 (ix2 p i)
      = (FloatOps.sitofp (F := Ideal) .f32 (x0 (ix2 p i)) - Ideal.ofBits .f32 0x41000000#32) * x1 (ix2 p (Cert.Spec.grp i))
        + ∑ k : Fin 16, x2 (ix2 p k) * x3 (ix2 k i) := by
  unfold k0_pay1
  refine (congrArg₂ (· + ·) (merge_cols _ shapeCasts_S256x128x32_S256x4096 p i) (patch_apply _ _ p i)).trans ?_
  refine congrArg₂ (· + ·) ?_ rfl
  refine (congrArg₂ (· * ·) (split_cols _ shapeCasts_S256x4096_S256x128x32 p (Cert.Spec.grp i) (lane i))
    (scale_lanes x1 shapeCasts_S256x128_S256x128x1 broadcasts_S256x128x1_S256x128x32 p (Cert.Spec.grp i) (lane i))).trans ?_
  rw [col_grp_lane]
  rfl

end Cert.KernelIdeal.Hand

end
-- ==== Proof.WeightArray.lean ====
/-
  The first launch: from blocks to the array.

  The grid has 16 points; point `t` reads rows `256 t … 256 t + 255` of the codes, the scales and the patch's left
  factor, the whole of the patch's right factor, and writes back rows `256 t … 256 t + 255` of the intermediate
  array. What it writes back is that row block of `Spec.weight` of the arrays as the launch finds them; the 16 row
  blocks tile the array (row `r` lies in block `r / 256`); so the array ends holding `Spec.weight`.
-/
import proofs.«120915_j15745350107702_1_alg».proof.Proof.Gen.KernelIdeal.Frame
import proofs.«120915_j15745350107702_1_alg».proof.Proof.DequantBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- Local row `p` of point `t`'s block is row `256 t + p` of the array. -/
abbrev row0 (t : Fin cfg0.N) (p : Fin 256) : Fin 4096 :=
  ⟨t.val * 256 + p.val, by have h : t.val < 16 := lt_of_lt_of_eq t.isLt N_0; have := p.isLt; omega⟩

/-- One block's entry is the matrix entry, once each loaded block is known to be the arrays' rows of that block. -/
theorem weight_block (q : Vec Ideal S4096x4096 .i32) (s : Vec Ideal S4096x128 .f32) (a : Vec Ideal S4096x16 .f32)
    (b : Vec Ideal S16x4096 .f32) (x0 : Vec Ideal S256x4096 .i32) (x1 : Vec Ideal S256x128 .f32) (x2 : Vec Ideal S256x16 .f32)
    (x3 : Vec Ideal S16x4096 .f32) (R : Fin 256 → Fin 4096)
    (h0 : ∀ (p : Fin 256) (i : Fin 4096), x0 (ix2 p i) = q (ix2 (R p) i))
    (h1 : ∀ (p : Fin 256) (g : Fin 128), x1 (ix2 p g) = s (ix2 (R p) g))
    (h2 : ∀ (p : Fin 256) (k : Fin 16), x2 (ix2 p k) = a (ix2 (R p) k))
    (h3 : ∀ (k : Fin 16) (i : Fin 4096), x3 (ix2 k i) = b (ix2 k i))
    (p : Fin 256) (i : Fin 4096) :
    k0_pay1 (F := Ideal) x0 x1 x2 x3 (ix2 p i) = Cert.Spec.weightAt q s a b (R p) i := by
  rw [dequant_apply, h0, h1]
  unfold Cert.Spec.weightAt
  exact congrArg (_ + ·) (Finset.sum_congr rfl fun k _ => by rw [h2, h3])

variable (V : (c : Dev nD) → (b : Ref sig .tc) → Buf (Elt Ideal) ((c : Thread nD τ).loc b))

theorem zero_off2 : (![0, 0] : Fin 2 → Nat) = fun _ => 0 := funext fun a => by fin_cases a <;> rfl

/-- The printed index maps over the grid: the row-blocked windows are at block (t, 0), the patch's right factor at (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The codes' block at point `t` is rows `256 t …` of the codes. -/
theorem blk0_codes (c : Dev nD) (t : Fin cfg0.N) (p : Fin 256) (i : Fin 4096) :
    (iblk0 V c 0 t : Vec Ideal S256x4096 .i32) (ix2 p i) = (V c main_arg1 : Vec Ideal S4096x4096 .i32) (ix2 (row0 t p) i) := by
  obtain ⟨e0, e1, -⟩ := idx0 t
  unfold iblk0
  rw [View.read_apply]
  show V c main_arg1 _ = V c main_arg1 _
  refine congrArg (V c main_arg1) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 4096 + 1 * i.val = i.val; rw [e1]; omega

/-- The scales' block at point `t` is rows `256 t …` of the scales. -/
theorem blk0_scales (c : Dev nD) (t : Fin cfg0.N) (p : Fin 256) (g : Fin 128) :
    (iblk0 V c 1 t : Vec Ideal S256x128 .f32) (ix2 p g) = (V c main_arg2 : Vec Ideal S4096x128 .f32) (ix2 (row0 t p) g) := by
  obtain ⟨-, -, e0, e1, -⟩ := idx0 t
  unfold iblk0
  rw [View.read_apply]
  show V c main_arg2 _ = V c main_arg2 _
  refine congrArg (V c main_arg2) (funext fun a => Fin.ext ?_)
  match a with
  | ⟨0, _⟩ => show win0_1.index t (0 : Fin 2) * 256 + 1 * p.val = t.val * 256 + p.val; rw [e0]; omega
  | ⟨1, _⟩ => show win0_1.index t (1 : Fin 2) * 128 + 1 * g.val = g.val; rw [e1]; omega

/-- The left factor's block at point `t` is rows `256 t …` of the left factor. -/
theorem blk0_left (c : Dev nD) (t : Fin cfg0.N) (p : Fin 256) (k : Fin 16) :
    (iblk0 V c 2 t : Vec Ideal S256x16 .f32) (ix2 p k) = (V c main_arg3 : Vec Ideal S4096x16 .f32) (ix2 (row0 t p) k) := by
  obtain ⟨-, -, -, -, e0, e1, -⟩ := idx0 t
  unfold iblk0
  rw [View.read_apply]
  show V c main_arg3 _ = V c main_arg3 _
  refine congrArg (V c main_arg3) (funext fun a => Fin.ext ?_)
  match a with
  | ⟨0, _⟩ => show win0_2.index t (0 : Fin 2) * 256 + 1 * p.val = t.val * 256 + p.val; rw [e0]; omega
  | ⟨1, _⟩ => show win0_2.index t (1 : Fin 2) * 16 + 1 * k.val = k.val; rw [e1]; omega

/-- The right factor's block is the whole right factor at every point. -/
theorem blk0_right (c : Dev nD) (t : Fin cfg0.N) (k : Fin 16) (i : Fin 4096) :
    (iblk0 V c 3 t : Vec Ideal S16x4096 .f32) (ix2 k i) = (V c main_arg4 : Vec Ideal S16x4096 .f32) (ix2 k i) := by
  obtain ⟨-, -, -, -, -, -, e0, e1, -⟩ := idx0 t
  unfold iblk0
  rw [View.read_apply]
  show V c main_arg4 _ = V c main_arg4 _
  refine congrArg (V c main_arg4) (funext fun a => Fin.ext ?_)
  match a with
  | ⟨0, _⟩ => show win0_3.index t (0 : Fin 2) * 16 + 1 * k.val = k.val; rw [e0]; omega
  | ⟨1, _⟩ => show win0_3.index t (1 : Fin 2) * 4096 + 1 * i.val = i.val; rw [e1]; omega

/-- The matrix the launch's arrays determine. -/
abbrev weightOf (c : Dev nD) : S4096x4096.Idx → EReal :=
  Cert.Spec.weight (V c main_arg1) (V c main_arg2) (V c main_arg3) (V c main_arg4)

/-- WHAT POINT `t` WRITES BACK is row block `t` of the matrix. -/
theorem flushed_weight (c : Dev nD) (t : Fin cfg0.N) :
    (dat0 V c).flushed 4 t = ((cfg0.win 4).blk t).view.read (Elt Ideal) (weightOf V c) := by
  show (cfg0.win 4).cut (grid0.coords t) ((dat0 V c).after 4 t) = _
  rw [after0_4]
  unfold out0_4
  rw [View.canon_unit_zero zero_off2]
  simp only [View.ld_unit_zero (S := S256x4096) zero_off2, View.ld_unit_zero (S := S256x128) zero_off2,
    View.ld_unit_zero (S := S256x16) zero_off2, View.ld_unit_zero (S := S16x4096) zero_off2]
  obtain ⟨-, -, -, -, -, -, -, -, e0, e1⟩ := idx0 t
  funext y
  obtain ⟨p, i, rfl⟩ : ∃ (p : Fin 256) (i : Fin 4096), y = ix2 p i := ⟨y 0, y 1, eq_ix2 y⟩
  rw [View.read_apply]
  have hy : ((cfg0.win 4).blk t).view.emb (ix2 p i) = ix2 (row0 t p) i := funext fun a => Fin.ext (by
    match a with
    | ⟨0, _⟩ => show win0_4.index t (0 : Fin 2) * 256 + 1 * p.val = t.val * 256 + p.val; rw [e0]; omega
    | ⟨1, _⟩ => show win0_4.index t (1 : Fin 2) * 4096 + 1 * i.val = i.val; rw [e1]; omega)
  rw [hy]
  exact weight_block (V c main_arg1) (V c main_arg2) (V c main_arg3) (V c main_arg4) _ _ _ _ (row0 t)
    (blk0_codes V c t) (blk0_scales V c t) (blk0_left V c t) (blk0_right V c t) p i

/-- An index of the array is in point `t`'s block iff each coordinate is in the block's range on its axis. -/
theorem mem_blk0 (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v0).slice (win0_4.rect t)).set ↔ _
  rw [View.set_slice_whole, Rect.mem_set_unit]
  exact Iff.rfl

/-- Row `r` of the array lies in the block of point `r / 256`. -/
theorem cover0 (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, e0, e1⟩ := idx0 t
  refine ⟨t, flush0_4 t, ?_⟩
  rw [mem_blk0]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 4096 ≤ (i 1).val ∧ (i 1).val < win0_4.index t (1 : Fin 2) * 4096 + 4096
    rw [e1]; omega

/-- THE INTERMEDIATE ARRAY after the first launch is the dequantized, patched weight matrix of the arrays it found. -/
theorem weight_array (c : Dev nD) : (dat0 V c).arrAt 4 cfg0.N = weightOf V c :=
  (dat0 V c).arrAt_eq_of_cover 4 (weightOf V c) (fun t _ => flushed_weight V c t) cover0

end Cert.KernelIdeal.Hand

end
-- ==== Proof.MatmulBody.lean ====
/-
  The second kernel's body at one entry of its block.

  On 512 input rows and 512 rows of the weight matrix the body contracts the two blocks' COLUMNS (both operands are
  contracted on their second axis) into a zero accumulator and adds the bias block as a row broadcast down the 512
  rows. At entry (p, o) that is
      Σ_k x[p, k] · w[o, k] + bias[o]
  of the loaded blocks.
-/
import proofs.«120915_j15745350107702_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ### Rows against rows: both operands contracted on their second axis -/

theorem rows_l0 (j : S512x512.Idx) (q : dot_S512x4096_S512x4096_S512x512_1_1_0_0_n_n.contr.Idx) : (dot_S512x4096_S512x4096_S512x512_1_1_0_0_n_n.lhsIdx j q 0).val = (j 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem rows_l1 (j : S512x512.Idx) (q : dot_S512x4096_S512x4096_S512x512_1_1_0_0_n_n.contr.Idx) : (dot_S512x4096_S512x4096_S512x512_1_1_0_0_n_n.lhsIdx j q 1).val = (q ⟨0, by decide⟩).val :=
  dot_S512x4096_S512x4096_S512x512_1_1_0_0_n_n.lhsIdx_val_of_single rfl j q
theorem rows_r0 (j : S512x512.Idx) (q : dot_S512x4096_S512x4096_S512x512_1_1_0_0_n_n.contr.Idx) : (dot_S512x4096_S512x4096_S512x512_1_1_0_0_n_n.rhsIdx j q 0).val = (j 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rows_r1 (j : S512x512.Idx) (q : dot_S512x4096_S512x4096_S512x512_1_1_0_0_n_n.contr.Idx) : (dot_S512x4096_S512x4096_S512x512_1_1_0_0_n_n.rhsIdx j q 1).val = (q ⟨0, by decide⟩).val :=
  dot_S512x4096_S512x4096_S512x512_1_1_0_0_n_n.rhsIdx_val_of_single rfl j q

theorem rows_dot (l : FVec Ideal S512x4096 .bf16) (r : FVec Ideal S512x4096 .bf16) (p o : Fin 512) :
    matmul dot_S512x4096_S512x4096_S512x512_1_1_0_0_n_n none l r (constant (F := Ideal) S512x512 .f32 0x00000000#32) (ix2 p o)
      = ∑ k : Fin 4096, l (ix2 p k) * r (ix2 o k) := by
  simp only [matmul]
  rw [Ideal.matmul_constant_zero_apply, ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p o) ((contrEquiv1 dot_S512x4096_S512x4096_S512x512_1_1_0_0_n_n 4096 rfl rfl).symm k) = ix2 p k := funext fun a => Fin.ext (by
    match a with
    | ⟨0, _⟩ => exact rows_l0 _ _
    | ⟨1, _⟩ => exact (rows_l1 _ _).trans hk)
  have er : dot_S512x4096_S512x4096_S512x512_1_1_0_0_n_n.rhsIdx (ix2 p o) ((contrEquiv1 dot_S512x4096_S512x4096_S512x512_1_1_0_0_n_n 4096 rfl rfl).symm k) = ix2 o k := funext fun a => Fin.ext (by
    match a with
    | ⟨0, _⟩ => exact rows_r0 _ _
    | ⟨1, _⟩ => exact (rows_r1 _ _).trans hk)
  rw [el, er]

/-- The bias block as one row, broadcast down the rows: entry (p, o) reads `bias[o]`. -/
theorem bias_rows {α : Type} (x : S512.Idx → α) (h1 : S512.ShapeCasts S1x512) (h2 : S1x512.Broadcasts S512x512) (p o : Fin 512) :
    broadcastTo S512x512 (shapeCast S1x512 x h1) h2 (ix2 p o) = x (ix1 o) :=
  (broadcastTo_1b_ab_apply (shapeCast S1x512 x h1) h2 p o).trans (shapeCast_a_1a_apply x h1 0 o)

/-- The body's stored value at entry (p, o) of the block, from the loaded blocks. -/
theorem matmul_bias_apply (x0 : Vec Ideal S512x4096 .f32) (x1 : Vec Ideal S512x4096 .bf16) (x2 : Vec Ideal S512 .f32) (p o : Fin 512) :
    k1_pay1 (F := Ideal) x0 x1 x2 (ix2 p o) = (∑ k : Fin 4096, x0 (ix2 p k) * x1 (ix2 o k)) + x2 (ix1 o) := by
  unfold k1_pay1
  refine (congrArg₂ (· + ·) (rows_dot _ _ p o) (bias_rows x2 shapeCasts_S512_S1x512 broadcasts_S1x512_S512x512 p o)).trans ?_
  refine congrArg (· + x2 (ix1 o)) (Finset.sum_congr rfl fun k _ => ?_)
  exact congrArg (x0 (ix2 p k) * ·) (congrFun (shapeCast_self x1 shapeCasts_S512x4096_S512x4096) (ix2 o k))

end Cert.KernelIdeal.Hand

end
-- ==== Proof.OutputArray.lean ====
/-
  The second launch: from blocks to the array.

  The grid is 16 × 8, point `t` = (t / 8, t % 8): it reads input rows `512 (t / 8) …`, rows `512 (t % 8) …` of the
  intermediate array and entries `512 (t % 8) …` of the bias, and writes back the [512, 512] block at block row `t / 8`,
  block column `t % 8` of the result. What it writes back is that block of `Spec.output` of the arrays as the launch
  finds them; the 128 blocks tile the result (entry (r, o) lies in the block of point `8 (r / 512) + o / 512`); so the
  result ends holding `Spec.output`.
-/
import proofs.«120915_j15745350107702_1_alg».proof.Proof.Gen.KernelIdeal.Frame
import proofs.«120915_j15745350107702_1_alg».proof.Proof.MatmulBody
import proofs.«120915_j15745350107702_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- Local row `p` of point `t`'s input block is input row `512 (t / 8) + p`. -/
abbrev row1 (t : Fin cfg1.N) (p : Fin 512) : Fin 8192 :=
  ⟨t.val / 8 * 512 + p.val, by have h : t.val < 128 := lt_of_lt_of_eq t.isLt N_1; have := p.isLt; omega⟩

/-- Local column `o` of point `t`'s output block is output column `512 (t % 8) + o`. -/
abbrev col1 (t : Fin cfg1.N) (o : Fin 512) : Fin 4096 :=
  ⟨t.val % 8 * 512 + o.val, by have := o.isLt; omega⟩

/-- One block's entry is the output's entry, once each loaded block is known to be the arrays' rows of that block. -/
theorem output_block (x : S8192x4096.Idx → EReal) (w : S4096x4096.Idx → EReal) (bias : S4096.Idx → EReal)
    (x0 : Vec Ideal S512x4096 .f32) (x1 : Vec Ideal S512x4096 .bf16) (x2 : Vec Ideal S512 .f32)
    (R : Fin 512 → Fin 8192) (C : Fin 512 → Fin 4096)
    (h0 : ∀ (p : Fin 512) (k : Fin 4096), x0 (ix2 p k) = x (ix2 (R p) k))
    (h1 : ∀ (o : Fin 512) (k : Fin 4096), x1 (ix2 o k) = w (ix2 (C o) k))
    (h2 : ∀ (o : Fin 512), x2 (ix1 o) = bias (ix1 (C o)))
    (p o : Fin 512) :
    k1_pay1 (F := Ideal) x0 x1 x2 (ix2 p o) = Cert.Spec.outputAt x w bias (R p) (C o) := by
  rw [matmul_bias_apply, h2]
  unfold Cert.Spec.outputAt
  exact congrArg (· + _) (Finset.sum_congr rfl fun k _ => by rw [h0, h1])

variable (V : (c : Dev nD) → (b : Ref sig .tc) → Buf (Elt Ideal) ((c : Thread nD τ).loc b))

theorem zero_off2' : (![0, 0] : Fin 2 → Nat) = fun _ => 0 := funext fun a => by fin_cases a <;> rfl
theorem zero_off1 : (![0] : Fin 1 → Nat) = fun _ => 0 := funext fun a => by fin_cases a; rfl

/-- The printed index maps over the grid: the input at block (t / 8, 0), the matrix and the bias at block t % 8,
    the result at block (t / 8, t % 8). -/
theorem idx1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 1) = t.val % 8
    ∧ win1_3.index t (0 : Fin 2) = t.val / 8 ∧ win1_3.index t (1 : Fin 2) = t.val % 8 :=
  (by decide +kernel : ∀ t : Fin grid1.N, _)

/-- The input's block at point `t` is input rows `512 (t / 8) …`. -/
theorem blk1_input (c : Dev nD) (t : Fin cfg1.N) (p : Fin 512) (k : Fin 4096) :
    (iblk1 V c 0 t : Vec Ideal S512x4096 .f32) (ix2 p k) = (V c main_arg0 : Vec Ideal S8192x4096 .f32) (ix2 (row1 t p) k) := by
  obtain ⟨e0, e1, -⟩ := idx1 t
  unfold iblk1
  rw [View.read_apply]
  show V c main_arg0 _ = V c main_arg0 _
  refine congrArg (V c main_arg0) (funext fun a => Fin.ext ?_)
  match a with
  | ⟨0, _⟩ => show win1_0.index t (0 : Fin 2) * 512 + 1 * p.val = t.val / 8 * 512 + p.val; rw [e0]; omega
  | ⟨1, _⟩ => show win1_0.index t (1 : Fin 2) * 4096 + 1 * k.val = k.val; rw [e1]; omega

/-- The matrix's block at point `t` is rows `512 (t % 8) …` of the intermediate array. -/
theorem blk1_matrix (c : Dev nD) (t : Fin cfg1.N) (o : Fin 512) (k : Fin 4096) :
    (iblk1 V c 1 t : Vec Ideal S512x4096 .bf16) (ix2 o k) = (V c main_v0 : Vec Ideal S4096x4096 .bf16) (ix2 (col1 t o) k) := by
  obtain ⟨-, -, e0, e1, -⟩ := idx1 t
  unfold iblk1
  rw [View.read_apply]
  show V c main_v0 _ = V c main_v0 _
  refine congrArg (V c main_v0) (funext fun a => Fin.ext ?_)
  match a with
  | ⟨0, _⟩ => show win1_1.index t (0 : Fin 2) * 512 + 1 * o.val = t.val % 8 * 512 + o.val; rw [e0]; omega
  | ⟨1, _⟩ => show win1_1.index t (1 : Fin 2) * 4096 + 1 * k.val = k.val; rw [e1]; omega

/-- The bias's block at point `t` is entries `512 (t % 8) …` of the bias. -/
theorem blk1_bias (c : Dev nD) (t : Fin cfg1.N) (o : Fin 512) :
    (iblk1 V c 2 t : Vec Ideal S512 .f32) (ix1 o) = (V c main_arg5 : Vec Ideal S4096 .f32) (ix1 (col1 t o)) := by
  obtain ⟨-, -, -, -, e0, -⟩ := idx1 t
  unfold iblk1
  rw [View.read_apply]
  show V c main_arg5 _ = V c main_arg5 _
  refine congrArg (V c main_arg5) (funext fun a => Fin.ext ?_)
  match a with
  | ⟨0, _⟩ => show win1_2.index t (0 : Fin 1) * 512 + 1 * o.val = t.val % 8 * 512 + o.val; rw [e0]; omega

/-- The output the launch's arrays determine. -/
abbrev outputOf (c : Dev nD) : S8192x4096.Idx → EReal :=
  Cert.Spec.output (V c main_arg0) (V c main_v0) (V c main_arg5)

/-- WHAT POINT `t` WRITES BACK is block (t / 8, t % 8) of the output. -/
theorem flushed_output (c : Dev nD) (t : Fin cfg1.N) :
    (dat1 V c).flushed 3 t = ((cfg1.win 3).blk t).view.read (Elt Ideal) (outputOf V c) := by
  show (cfg1.win 3).cut (grid1.coords t) ((dat1 V c).after 3 t) = _
  rw [after1_3]
  unfold out1_3
  rw [View.canon_unit_zero zero_off2']
  simp only [View.ld_unit_zero (S := S512x4096) zero_off2', View.ld_unit_zero (S := S512) zero_off1]
  obtain ⟨-, -, -, -, -, e0, e1⟩ := idx1 t
  funext y
  obtain ⟨p, o, rfl⟩ : ∃ (p : Fin 512) (o : Fin 512), y = ix2 p o := ⟨y 0, y 1, eq_ix2 y⟩
  rw [View.read_apply]
  have hy : ((cfg1.win 3).blk t).view.emb (ix2 p o) = ix2 (row1 t p) (col1 t o) := funext fun a => Fin.ext (by
    match a with
    | ⟨0, _⟩ => show win1_3.index t (0 : Fin 2) * 512 + 1 * p.val = t.val / 8 * 512 + p.val; rw [e0]; omega
    | ⟨1, _⟩ => show win1_3.index t (1 : Fin 2) * 512 + 1 * o.val = t.val % 8 * 512 + o.val; rw [e1]; omega)
  rw [hy]
  exact output_block (V c main_arg0) (V c main_v0) (V c main_arg5) _ _ _ (row1 t) (col1 t)
    (blk1_input V c t) (blk1_matrix V c t) (blk1_bias V c t) p o

/-- An index of the array is in point `t`'s block iff each coordinate is in the block's range on its axis. -/
theorem mem_blk1 (t : Fin cfg1.N) (i : S8192x4096.Idx) :
    i ∈ ((cfg1.win 3).blk t).view.set ↔ ∀ a : Fin 2, win1_3.index t a * S512x512.size a ≤ (i a).val
      ∧ (i a).val < win1_3.index t a * S512x512.size a + S512x512.size a := by
  show i ∈ ((View.whole main_v1).slice (win1_3.rect t)).set ↔ _
  rw [View.set_slice_whole, Rect.mem_set_unit]
  exact Iff.rfl

/-- Entry (r, o) of the result lies in the block of point `8 (r / 512) + o / 512`. -/
theorem cover1 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  obtain ⟨t, ht⟩ : ∃ t : Fin cfg1.N, t.val = (i 0).val / 512 * 8 + (i 1).val / 512 :=
    ⟨⟨(i 0).val / 512 * 8 + (i 1).val / 512, by rw [hN]; omega⟩, rfl⟩
  obtain ⟨-, -, -, -, -, e0, e1⟩ := idx1 t
  refine ⟨t, flush1_3 t, ?_⟩
  rw [mem_blk1]
  intro a
  match a with
  | ⟨0, _⟩ =>
    show win1_3.index t (0 : Fin 2) * 512 ≤ (i 0).val ∧ (i 0).val < win1_3.index t (0 : Fin 2) * 512 + 512
    rw [e0, ht]; omega
  | ⟨1, _⟩ =>
    show win1_3.index t (1 : Fin 2) * 512 ≤ (i 1).val ∧ (i 1).val < win1_3.index t (1 : Fin 2) * 512 + 512
    rw [e1, ht]; omega

/-- THE RESULT ARRAY after the second launch is the layer's output of the arrays it found. -/
theorem output_array (c : Dev nD) : (dat1 V c).arrAt 3 cfg1.N = outputOf V c :=
  (dat1 V c).arrAt_eq_of_cover 3 (outputOf V c) (fun t _ => flushed_output V c t) cover1

end Cert.KernelIdeal.Hand

end
-- ==== Proof.KernelValue.lean ====
/-
  The kernel's result as one function of the arguments.

  The second launch finds the input and the bias as launched (the first launch does not touch them) and the
  intermediate array at what the first launch left: the dequantized, patched weight matrix of the arguments. Its own
  result is the layer's output of what it finds. Together: the kernel's result is
  `Spec.output x (Spec.weight q s a b) bias` of the argument arrays.
-/
import proofs.«120915_j15745350107702_1_alg».proof.Proof.KernelRun
import proofs.«120915_j15745350107702_1_alg».proof.Proof.WeightArray
import proofs.«120915_j15745350107702_1_alg».proof.Proof.OutputArray

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The layer's output on the dequantized, patched weight matrix, of the argument arrays at launch. -/
abbrev result (c : Dev nD) : S8192x4096.Idx → EReal :=
  Cert.Spec.output (m ((c.tc : Thread nD τ).loc main_arg0))
    (Cert.Spec.weight (m ((c.tc : Thread nD τ).loc main_arg1)) (m ((c.tc : Thread nD τ).loc main_arg2))
      (m ((c.tc : Thread nD τ).loc main_arg3)) (m ((c.tc : Thread nD τ).loc main_arg4)))
    (m ((c.tc : Thread nD τ).loc main_arg5))

/-- The second launch finds the input as launched. -/
theorem entry_input (c : Dev nD) :
    (V1 m ρ c main_arg0 : S8192x4096.Idx → EReal) = m ((c.tc : Thread nD τ).loc main_arg0) :=
  W1_of_ne m ρ c main_arg0 (by decide)

/-- The second launch finds the bias as launched. -/
theorem entry_bias (c : Dev nD) :
    (V1 m ρ c main_arg5 : S4096.Idx → EReal) = m ((c.tc : Thread nD τ).loc main_arg5) :=
  W1_of_ne m ρ c main_arg5 (by decide)

/-- The second launch finds the intermediate array at the weight matrix of the arguments. -/
theorem entry_matrix (c : Dev nD) :
    (V1 m ρ c main_v0 : S4096x4096.Idx → EReal)
      = Cert.Spec.weight (m ((c.tc : Thread nD τ).loc main_arg1)) (m ((c.tc : Thread nD τ).loc main_arg2))
          (m ((c.tc : Thread nD τ).loc main_arg3)) (m ((c.tc : Thread nD τ).loc main_arg4)) :=
  (W1_arr m ρ c 4).trans (weight_array (V0 m ρ) c)

/-- The result array after both launches. -/
theorem result_array (c : Dev nD) : (dat1 (V1 m ρ) c).arrAt 3 cfg1.N = result m c := by
  refine (output_array (V1 m ρ) c).trans ?_
  show Cert.Spec.output (V1 m ρ c main_arg0 : S8192x4096.Idx → EReal) (V1 m ρ c main_v0 : S4096x4096.Idx → EReal)
    (V1 m ρ c main_arg5 : S4096.Idx → EReal) = _
  rw [entry_input m ρ c, entry_matrix m ρ c, entry_bias m ρ c]

/-- The kernel's run, read: the result array at the specification of the arguments, the arguments unchanged. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_array m ρ c), (h c).2⟩) (run_named m ρ)

end Cert.KernelIdeal.Hand

end
-- ==== Proof.lean ====
/-
  A quantized linear layer with a low-rank patch, computed in two launches, against its plain reference.

  Both programs compute, on the extended reals,
      w[o, i] = (q[o, i] - 8) · s[o, i / 32] + Σ_r a[o, r] · b[r, i],      y[t, o] = Σ_k x[t, k] · w[o, k] + bias[o]
  (Proof/Spec.lean). The kernel does it in two launches: the first builds `w` in row blocks of 256
  (Proof/DequantBody.lean, Proof/WeightArray.lean), the second multiplies 512 × 512 blocks of the result from 512 input
  rows and 512 rows of `w` (Proof/MatmulBody.lean, Proof/OutputArray.lean); Proof/KernelRun.lean reads the run's final
  memory at the result's buffer and Proof/KernelValue.lean joins the two launches. The reference reshapes, broadcasts
  and transposes whole arrays; read index by index it is the same function (Proof/RefValue.lean). No law beyond the
  commutative monoid of the sums is used — the two sides have the same terms, tiled differently —, so the precondition
  (finite inputs) is never opened. The idealized kernel is the kernel's own text read on the extended reals (no rewrite
  was applied), so `preserves` has nothing to state.
-/
import proofs.«120915_j15745350107702_1_alg».proof.Defs
import proofs.«120915_j15745350107702_1_alg».proof.Proof.Gen.Kernel
import proofs.«120915_j15745350107702_1_alg».proof.Proof.Gen.Kernel.Frame
import proofs.«120915_j15745350107702_1_alg».proof.Proof.Gen.KernelIdeal
import proofs.«120915_j15745350107702_1_alg».proof.Proof.Gen.KernelIdeal.Frame
import proofs.«120915_j15745350107702_1_alg».proof.Proof.Gen.ReferenceIdeal
import proofs.«120915_j15745350107702_1_alg».proof.Proof.Gen.ReferenceIdeal.Run
import proofs.«120915_j15745350107702_1_alg».proof.Proof.Gen.ReferenceIdeal.Read
import proofs.«120915_j15745350107702_1_alg».proof.Proof.Gen.Pre_finite_inputs
import proofs.«120915_j15745350107702_1_alg».proof.Proof.RefValue
import proofs.«120915_j15745350107702_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result array at
    `Spec.output x (Spec.weight q s a b) bias` of the kernel's arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v14_eq _ _ _ _ _ _).trans (Cert.ReferenceIdeal.RefValue.result_eq _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
